-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x16x16 : Shape := ⟨3, ![10000, 16, 16]⟩
abbrev S10000x10000 : Shape := ⟨2, ![10000, 10000]⟩
abbrev S256x256 : Shape := ⟨2, ![256, 256]⟩
abbrev S_ : Shape := ⟨0, ![]⟩

class Facts : Prop where
  bcast_S_S10000x16x16 : S_.BroadcastsInDim S10000x16x16 (![] : Fin 0 → Fin S10000x16x16.rank)
  reducesTo_S10000x16x16_S_d0_1_2 : S10000x16x16.ReducesTo [0, 1, 2] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S256x256 : S_.BroadcastsInDim S256x256 (![] : Fin 0 → Fin S256x256.rank)
  reducesTo_S256x256_S_d0_1 : S256x256.ReducesTo [0, 1] S_

variable [Facts]

def fn {F : FTy → Type} [FloatOps F] (main_arg0 : FVec F S10000x16x16 .f32) (main_arg1 : FVec F S10000x10000 .f32) (main_arg2 : FVec F S256x256 .f32) : IVec S_ 1 :=
  let main_v0 : FVec F S10000x16x16 .f32 := Host.absf main_arg0
  let main_cst : FVec F S_ .f32 := constant S_ .f32 0x7F800000#32
  let main_v1 : FVec F S10000x16x16 .f32 := broadcastInDim S10000x16x16 ![] bcast_S_S10000x16x16 main_cst
  let main_v2 : IVec S10000x16x16 1 := cmpf .olt main_v0 main_v1
  let main_c : IVec S_ 1 := constantI S_ 1 1#1
  let main_v3 : IVec S_ 1 := (fun x v => Host.reduce IntOp.andi x v reducesTo_S10000x16x16_S_d0_1_2 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  main_v13
-- ==== Kernel.lean ====
abbrev S10000x16x16 : Shape := ⟨3, ![10000, 16, 16]⟩
abbrev S10000x10000 : Shape := ⟨2, ![10000, 10000]⟩
abbrev S256x256 : Shape := ⟨2, ![256, 256]⟩
abbrev S10000x256 : Shape := ⟨2, ![10000, 256]⟩
abbrev S400x10000 : Shape := ⟨2, ![400, 10000]⟩
abbrev S400x256 : Shape := ⟨2, ![400, 256]⟩

abbrev nBuf : Space → Nat
  | .hbm => 5
  | .vmem => 7
  | .smem => 0
  | _ => 0

abbrev bufTy : (tb : Table) → Fin (tcTables nBuf tb) → BufTy
  | .hbm, ⟨0, _⟩ => ⟨S10000x16x16, .f32⟩
  | .hbm, ⟨1, _⟩ => ⟨S10000x10000, .f32⟩
  | .hbm, ⟨2, _⟩ => ⟨S256x256, .f32⟩
  | .hbm, ⟨3, _⟩ => ⟨S10000x256, .f32⟩
  | .hbm, ⟨4, _⟩ => ⟨S10000x256, .f32⟩
  | .local _ .vmem, ⟨0, _⟩ => ⟨S400x10000, .f32⟩
  | .local _ .vmem, ⟨1, _⟩ => ⟨S400x10000, .f32⟩
  | .local _ .vmem, ⟨2, _⟩ => ⟨S10000x256, .f32⟩
  | .local _ .vmem, ⟨3, _⟩ => ⟨S256x256, .f32⟩
  | .local _ .vmem, ⟨4, _⟩ => ⟨S400x256, .f32⟩
  | .local _ .vmem, ⟨5, _⟩ => ⟨S400x256, .f32⟩
  | .local _ .vmem, ⟨6, _⟩ => ⟨S10000x256, .bf16⟩
  | _, _ => ⟨S10000x16x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S400x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S10000x16x16_S10000x256 : S10000x16x16.ShapeCasts S10000x256
  inb_S10000x256_S10000x256_0_0 : ∀ a, (![0, 0] : Fin 2 → Nat) a + S10000x256.size a ≤ S10000x256.size a
  h_S10000x256 : 0 < S10000x256.numel
  shapeCasts_S10000x256_S10000x256 : S10000x256.ShapeCasts S10000x256
  inb_S256x256_S256x256_0_0 : ∀ a, (![0, 0] : Fin 2 → Nat) a + S256x256.size a ≤ S256x256.size a
  h_S256x256 : 0 < S256x256.numel
  bitsLt_bf16_f32 : FTy.bits .bf16 < FTy.bits .f32
  packedbf16_S10000x256_S10000x256_0_0 : (Rect.unit (s := S10000x256) ![0, 0] S10000x256.size inb_S10000x256_S10000x256_0_0).PackedRows (EltTy.packing .bf16)
  inb_S400x10000_S400x10000_0_0 : ∀ a, (![0, 0] : Fin 2 → Nat) a + S400x10000.size a ≤ S400x10000.size a
  h_S400x10000 : 0 < S400x10000.numel
  inb_S400x256_S400x256_0_0 : ∀ a, (![0, 0] : Fin 2 → Nat) a + S400x256.size a ≤ S400x256.size a
  h_S400x256 : 0 < S400x256.numel
  dot_S10000x256_S256x256_S10000x256_1_0_0_1_n_n_wf : DotDims.WF S10000x256 S256x256 S10000x256 [1] [0] [0] [1] [] []
  dot_S400x10000_S10000x256_S400x256_1_0_0_1_n_n_wf : DotDims.WF S400x10000 S10000x256 S400x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x256.size a ≤ S10000x256.size a
  hwx0_1 : ∀ i : grid0.Coords, EltTy.bits .f32 = 32 ∨ (Rect.block (s := S10000x256) S10000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x256.size a ≤ S10000x256.size a
  hwx0_3 : ∀ i : grid0.Coords, EltTy.bits .f32 = 32 ∨ (Rect.block (s := S10000x256) S400x256.size (cc0_transform_3 i) (hinb0_3 i)).WholeWords (EltTy.packing .f32)

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S400x10000_S10000x256_S400x256_1_0_0_1_n_n : DotDims S400x10000 S10000x256 S400x256 where
  lhsContracting := [1]
  rhsContracting := [0]
  lhsNonContracting := [0]
  rhsNonContracting := [1]
  lhsBatch := []
  rhsBatch := []
  wf := dot_S400x10000_S10000x256_S400x256_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S10000x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S400x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S10000x16x16 : Shape := ⟨3, ![10000, 16, 16]⟩
abbrev S10000x10000 : Shape := ⟨2, ![10000, 10000]⟩
abbrev S256x256 : Shape := ⟨2, ![256, 256]⟩
abbrev S10000x256 : Shape := ⟨2, ![10000, 256]⟩

abbrev nBuf : Space → Nat
  | .hbm => 6
  | .vmem => 0
  | .smem => 0
  | _ => 0

abbrev bufTy : (tb : Table) → Fin (tcTables nBuf tb) → BufTy
  | .hbm, ⟨0, _⟩ => ⟨S10000x16x16, .f32⟩
  | .hbm, ⟨1, _⟩ => ⟨S10000x10000, .f32⟩
  | .hbm, ⟨2, _⟩ => ⟨S256x256, .f32⟩
  | .hbm, ⟨3, _⟩ => ⟨S10000x256, .f32⟩
  | .hbm, ⟨4, _⟩ => ⟨S10000x256, .f32⟩
  | .hbm, ⟨5, _⟩ => ⟨S10000x256, .f32⟩
  | _, _ => ⟨S10000x16x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]

class Facts₀ : Prop where
  shapeCasts_S10000x16x16_S10000x256 : S10000x16x16.ShapeCasts S10000x256
  dot_S10000x256_S256x256_S10000x256_1_0_0_1_n_n_wf : DotDims.WF S10000x256 S256x256 S10000x256 [1] [0] [0] [1] [] []
  dot_S10000x10000_S10000x256_S10000x256_1_0_0_1_n_n_wf : DotDims.WF S10000x10000 S10000x256 S10000x256 [1] [0] [0] [1] [] []

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf

class Facts : Prop extends Facts₀ where

variable [Facts]
-- ==== Proof.BodyStores.lean ====
/-
  What one run of the kernel body leaves behind, as values of what it loaded (at any float instance).

  The body has two control cases.  At the grid's first point it first multiplies the resident feature block by the
  resident weight block into a zero accumulator, narrows the product to bf16 and stores it whole into the scratch
  buffer; at every point it then loads the point's block of adjacency rows, narrows it to bf16, multiplies it by what
  the scratch buffer holds into a zero accumulator, and stores that product whole into the output block.  So

    first point :  scratch := support(features, weights)          output := rows · support(features, weights)
    later points:  scratch unchanged (it holds xs)                output := rows · xs

  where support(·,·) and rows · (·) are the body's two arithmetic terms.  Each store covers its buffer with one
  whole-shape rectangle at offset zero, so the buffer's contents afterwards are that store's value; at the first point
  the second product reads the scratch back through the same rectangle, so it reads the value just stored.
-/
import proofs.«113308_g55241869361592_cont_9to1c4b_774_19_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.BodyStores

open Cert.KernelIdeal Cert.KernelIdeal.Gen

variable {F : FTy → Type} [FloatOps F]

/-- The offsets of every access of the body are zero. -/
theorem hz : (![0, 0] : Fin 2 → Nat) = fun _ => 0 := funext fun a => by fin_cases a <;> rfl

/-- First point: the scratch buffer ends holding the narrowed product of the feature block x1 and the weight block x2. -/
theorem scratch_first (c : Dev nD) (i : grid0.Coords) (a1 : Memref sig .tc .vmem S400x10000 .f32) (h1 : a1.IsWhole)
    (a2 : Memref sig .tc .vmem S10000x256 .f32) (h2 : a2.IsWhole) (a3 : Memref sig .tc .vmem S256x256 .f32) (h3 : a3.IsWhole)
    (a4 : Memref sig .tc .vmem S400x256 .f32) (h4 : a4.IsWhole) (a5 : Memref sig .tc .vmem S10000x256 .bf16) (h5 : a5.IsWhole)
    (hc : cond0_0 i) (x0 : Vec F S400x10000 .f32) (x1 : Vec F S10000x256 .f32) (x2 : Vec F S256x256 .f32) :
    sout0_A_0 c i a1 h1 a2 h2 a3 h3 a4 h4 a5 h5 hc x0 x1 x2 = k0_pay1 x1 x2 := by
  unfold sout0_A_0
  rw [View.read_writes_eq_canon _ _ _ (scover0_A_0 c i a1 h1 a2 h2 a3 h3 a4 h4 a5 h5 hc x0 x1 x2)]
  unfold kernelRun0_A
  dsimp only
  sl_unfold_words
  rw [View.canon_unit_zero hz]
  simp only [View.readAt_eq_ld, h2.read_unread, h3.read_unread, View.ld_unit_zero (S := S10000x256) hz,
    View.ld_unit_zero (S := S256x256) hz]

/-- A later point: the output block ends holding the product of the block of adjacency rows x0 with what the scratch
    buffer held (xs). -/
theorem out_later (c : Dev nD) (i : grid0.Coords) (a1 : Memref sig .tc .vmem S400x10000 .f32) (h1 : a1.IsWhole)
    (a2 : Memref sig .tc .vmem S10000x256 .f32) (h2 : a2.IsWhole) (a3 : Memref sig .tc .vmem S256x256 .f32) (h3 : a3.IsWhole)
    (a4 : Memref sig .tc .vmem S400x256 .f32) (h4 : a4.IsWhole) (a5 : Memref sig .tc .vmem S10000x256 .bf16) (h5 : a5.IsWhole)
    (hc : ¬cond0_0 i) (x0 : Vec F S400x10000 .f32) (x1 : Vec F S10000x256 .f32) (x2 : Vec F S256x256 .f32)
    (xs : Vec F S10000x256 .bf16) :
    out0_B_3 c i a1 h1 a2 h2 a3 h3 a4 h4 a5 h5 hc x0 x1 x2 xs = k0_pay2 x0 xs := by
  unfold out0_B_3
  rw [View.read_writes_eq_canon _ _ _ (cover0_B_3 c i a1 h1 a2 h2 a3 h3 a4 h4 a5 h5 hc x0 x1 x2 xs)]
  unfold kernelRun0_B
  dsimp only
  sl_unfold_words
  rw [View.canon_unit_zero hz]
  simp only [View.readAt_eq_ld, h1.read_unread, h5.read_unread, View.ld_unit_zero (S := S400x10000) hz,
    View.ld_unit_zero (S := S10000x256) hz]

/-- First point: the output block ends holding the product of the block of adjacency rows x0 with the value just
    stored into the scratch buffer, read back through the rectangle it was stored through. -/
theorem out_first (c : Dev nD) (i : grid0.Coords) (a1 : Memref sig .tc .vmem S400x10000 .f32) (h1 : a1.IsWhole)
    (a2 : Memref sig .tc .vmem S10000x256 .f32) (h2 : a2.IsWhole) (a3 : Memref sig .tc .vmem S256x256 .f32) (h3 : a3.IsWhole)
    (a4 : Memref sig .tc .vmem S400x256 .f32) (h4 : a4.IsWhole) (a5 : Memref sig .tc .vmem S10000x256 .bf16) (h5 : a5.IsWhole)
    (hc : cond0_0 i) (x0 : Vec F S400x10000 .f32) (x1 : Vec F S10000x256 .f32) (x2 : Vec F S256x256 .f32) :
    out0_A_3 c i a1 h1 a2 h2 a3 h3 a4 h4 a5 h5 hc x0 x1 x2 = k0_pay2 x0 (k0_pay1 x1 x2) := by
  unfold out0_A_3
  rw [View.read_writes_eq_canon _ _ _ (cover0_A_3 c i a1 h1 a2 h2 a3 h3 a4 h4 a5 h5 hc x0 x1 x2)]
  unfold kernelRun0_A
  dsimp only
  sl_unfold_words
  rw [View.canon_unit_zero (S := S400x256) hz, View.readCov_unit_zero (S := S10000x256) _ hz]
  simp only [View.readAt_eq_ld, h1.read_unread, h2.read_unread, h3.read_unread, View.ld_unit_zero (S := S400x10000) hz,
    View.ld_unit_zero (S := S10000x256) hz, View.ld_unit_zero (S := S256x256) hz]

end Cert.KernelIdeal.BodyStores

end
-- ==== Proof.AfterPoint.lean ====
/-
  What the scratch buffer and the output block hold after each grid point (at any float instance).

  The feature array and the weight array are each ONE block (their index maps are constantly zero), so at every
  point the resident blocks are the whole arrays.  The scratch buffer is written at the first point only, with the
  support computed from those two whole arrays, and no later point stores into it: by induction on the point it holds
  that same support after every point.  Hence after point t the output block is the product of the t-th block of
  adjacency rows with that one support, at the first point and at every later one alike.
-/
import proofs.«113308_g55241869361592_cont_9to1c4b_774_19_alg».proof.Proof.BodyStores

noncomputable section

open Idealize.ShloMosaic Idealize.ShloMosaic.TcCoe Idealize.SL.Sem

namespace Cert.KernelIdeal.AfterPoint

open Cert.KernelIdeal Cert.KernelIdeal.Gen Cert.KernelIdeal.BodyStores

variable {F : FTy → Type} [FloatOps F]
variable (m : (ℓ : Loc nD τ sig) → Buf (Elt F) ℓ)

/-- The feature window's and the weight window's block index is (0, 0) at every point (decided over the 25 points). -/
theorem idx_resident : ∀ t : Fin cfg0.N,
    win0_1.index t 0 = 0 ∧ win0_1.index t 1 = 0 ∧ win0_2.index t 0 = 0 ∧ win0_2.index t 1 = 0 :=
  (by decide +kernel : ∀ t : Fin grid0.N,
    win0_1.index t 0 = 0 ∧ win0_1.index t 1 = 0 ∧ win0_2.index t 0 = 0 ∧ win0_2.index t 1 = 0)

/-- The feature window's block at any point is the whole (reshaped) feature array. -/
theorem features_whole (c : Dev nD) (t : Fin cfg0.N) :
    (iblk m c 1 t : Vec F S10000x256 .f32) = V m c main_call0_v0 := by
  have hi := idx_resident t
  funext j
  unfold iblk
  rw [View.read_apply]
  show V m c main_call0_v0 _ = V m c main_call0_v0 j
  congr 1
  funext a
  apply Fin.ext
  match a with
  | ⟨0, _⟩ => show win0_1.index t 0 * 10000 + 1 * (j 0).val = (j 0).val; rw [hi.1]; omega
  | ⟨1, _⟩ => show win0_1.index t 1 * 256 + 1 * (j 1).val = (j 1).val; rw [hi.2.1]; omega

/-- The weight window's block at any point is the whole weight array. -/
theorem weights_whole (c : Dev nD) (t : Fin cfg0.N) :
    (iblk m c 2 t : Vec F S256x256 .f32) = V m c main_arg2 := by
  have hi := idx_resident t
  funext j
  unfold iblk
  rw [View.read_apply]
  show V m c main_arg2 _ = V m c main_arg2 j
  congr 1
  funext a
  apply Fin.ext
  match a with
  | ⟨0, _⟩ => show win0_2.index t 0 * 256 + 1 * (j 0).val = (j 0).val; rw [hi.2.2.1]; omega
  | ⟨1, _⟩ => show win0_2.index t 1 * 256 + 1 * (j 1).val = (j 1).val; rw [hi.2.2.2]; omega

/-- The support as the body computes it at the first point, from the whole feature and weight arrays. -/
def held (c : Dev nD) : Vec F S10000x256 .bf16 := k0_pay1 (V m c main_call0_v0) (V m c main_arg2)

/-- After every point the scratch buffer holds that support: stored at the first point, untouched afterwards. -/
theorem scratch_after (c : Dev nD) : ∀ (n : ℕ) (hn : n < cfg0.N), (outsAt0 m c n hn).2 = held m c
  | 0, hn => by
    rw [outsAt0_A m c ⟨0, hn⟩ rfl]
    dsimp only
    exact (scratch_first c (grid0.coords ⟨0, hn⟩) (ms0_0 ⟨0, hn⟩) (hs0_0 ⟨0, hn⟩) (ms0_1 ⟨0, hn⟩) (hs0_1 ⟨0, hn⟩)
      (ms0_2 ⟨0, hn⟩) (hs0_2 ⟨0, hn⟩) (ms0_3 ⟨0, hn⟩) (hs0_3 ⟨0, hn⟩) scM0_0 (Memref.isWhole_whole _)
      ((hcond0_0 ⟨0, hn⟩).mpr rfl) (iblk m c 0 ⟨0, hn⟩) (iblk m c 1 ⟨0, hn⟩) (iblk m c 2 ⟨0, hn⟩)).trans
      (congrArg₂ k0_pay1 (features_whole m c ⟨0, hn⟩) (weights_whole m c ⟨0, hn⟩))
  | n + 1, hn => by
    have hN : cfg0.N = 25 := N_0
    have hB : ¬(⟨n + 1, hn⟩ : Fin cfg0.N).val % 25 = 0 := by dsimp only; omega
    rw [outsAt0_B m c ⟨n + 1, hn⟩ hB]
    show (outsAt0 m c n _).2 = _
    exact scratch_after c n _

/-- After point t the output block is the product of the t-th block of adjacency rows with that support. -/
theorem out_after (c : Dev nD) (t : Fin cfg0.N) :
    (outsAt0 m c t.val t.isLt).1 = k0_pay2 (iblk m c 0 t) (held m c) := by
  by_cases h0 : t.val % 25 = 0
  · rw [outsAt0_A m c t h0]
    dsimp only
    exact (out_first c (grid0.coords t) (ms0_0 t) (hs0_0 t) (ms0_1 t) (hs0_1 t) (ms0_2 t) (hs0_2 t) (ms0_3 t) (hs0_3 t)
      scM0_0 (Memref.isWhole_whole _) ((hcond0_0 t).mpr h0) (iblk m c 0 t) (iblk m c 1 t) (iblk m c 2 t)).trans
      (congrArg (k0_pay2 (iblk m c 0 t)) (congrArg₂ k0_pay1 (features_whole m c t) (weights_whole m c t)))
  · rw [outsAt0_B m c t h0]
    dsimp only
    exact (out_later c (grid0.coords t) (ms0_0 t) (hs0_0 t) (ms0_1 t) (hs0_1 t) (ms0_2 t) (hs0_2 t) (ms0_3 t) (hs0_3 t)
      scM0_0 (Memref.isWhole_whole _) (fun h => h0 ((hcond0_0 t).mp h)) (iblk m c 0 t) (iblk m c 1 t) (iblk m c 2 t)
      (outsAt0 m c (t.val - 1) (Nat.lt_of_le_of_lt (Nat.sub_le _ _) t.isLt)).2).trans
      (congrArg (k0_pay2 (iblk m c 0 t)) (scratch_after m c _ _))

end Cert.KernelIdeal.AfterPoint

end
-- ==== Proof.LibRowDot.lean ====
/-
  A plain two-dimensional product read one entry at a time, at the exact (extended-real) values.

  For the dimension numbers of an M×K by K×N product (contract the left operand's axis 1 with the right
  operand's axis 0, no batch axis) the contraction's index set is one axis of extent K, so the entry (p, q) of the
  product is the sum over k < K of  l(p, k) · r(k, q):  row p of the left operand times the matrix r, at
  column q.  Stated once for every M, K, N, for the vector unit's matrix product into a zero accumulator and for
  the host's dot_general; both are that same sum, so a product computed block of rows by block of rows and a
  product computed whole agree entry by entry.
-/
import Idealize.ShloMosaic.Lib.ValueIdx
import Idealize.ShloMosaic.PureOps.Ideal.Laws

noncomputable section

open scoped BigOperators

namespace Cert.RowDot

open Idealize.ShloMosaic Idealize.ShloMosaic.ValueIdx

/-- Entry q of (row · W) for a K×N matrix W:  the sum over k of row(k) · W(k, q). -/
def rowDot {K N : Nat} (row : Fin K → EReal) (W : (⟨2, ![K, N]⟩ : Shape).Idx → EReal) (q : Fin N) : EReal :=
  ∑ k : Fin K, row k * W (ix2 k q)

/-- Row p of an M×K array, as a function of the column. -/
def rowOf {M K : Nat} (x : (⟨2, ![M, K]⟩ : Shape).Idx → EReal) (p : Fin M) : Fin K → EReal := fun k => x (ix2 p k)

/-- The contraction shape of a plain product is one axis. -/
theorem plain_rank (M K N : Nat) : (DotDims.plain M K N).contr.rank = 1 := rfl

/-- The left operand's index at output index j and contraction position u keeps j's row. -/
theorem plain_lhs0 {M K N : Nat} (j : (⟨2, ![M, N]⟩ : Shape).Idx) (u : (DotDims.plain M K N).contr.Idx) :
    ((DotDims.plain M K N).lhsIdx j u 0).val = (j 0).val := by
  unfold DotDims.lhsIdx
  rw [dif_neg (show ¬((0 : Fin (⟨2, ![M, K]⟩ : Shape).rank) ∈ (DotDims.plain M K N).lhsBatch) from List.not_mem_nil),
    dif_pos (show (0 : Fin (⟨2, ![M, K]⟩ : Shape).rank) ∈ (DotDims.plain M K N).lhsNonContracting from List.mem_singleton.mpr rfl)]
  rfl

/-- The left operand's column is the contraction position. -/
theorem plain_lhs1 {M K N : Nat} (j : (⟨2, ![M, N]⟩ : Shape).Idx) (u : (DotDims.plain M K N).contr.Idx) :
    ((DotDims.plain M K N).lhsIdx j u 1).val = (u ⟨0, by rw [plain_rank]; exact Nat.one_pos⟩).val :=
  (DotDims.plain M K N).lhsIdx_val_of_single rfl j u

/-- The right operand's row is the contraction position. -/
theorem plain_rhs0 {M K N : Nat} (j : (⟨2, ![M, N]⟩ : Shape).Idx) (u : (DotDims.plain M K N).contr.Idx) :
    ((DotDims.plain M K N).rhsIdx j u 0).val = (u ⟨0, by rw [plain_rank]; exact Nat.one_pos⟩).val :=
  (DotDims.plain M K N).rhsIdx_val_of_single rfl j u

/-- The right operand's index keeps j's column. -/
theorem plain_rhs1 {M K N : Nat} (j : (⟨2, ![M, N]⟩ : Shape).Idx) (u : (DotDims.plain M K N).contr.Idx) :
    ((DotDims.plain M K N).rhsIdx j u 1).val = (j 1).val := by
  unfold DotDims.rhsIdx
  rw [dif_neg (show ¬((1 : Fin (⟨2, ![K, N]⟩ : Shape).rank) ∈ (DotDims.plain M K N).rhsBatch) from List.not_mem_nil),
    dif_pos (show (1 : Fin (⟨2, ![K, N]⟩ : Shape).rank) ∈ (DotDims.plain M K N).rhsNonContracting from List.mem_singleton.mpr rfl)]
  rfl

/-- The contraction's sum of a plain product, re-indexed by k < K: row (j 0) of l times r, at column (j 1). -/
theorem plain_contr_sum {M K N : Nat} (l : (⟨2, ![M, K]⟩ : Shape).Idx → EReal) (r : (⟨2, ![K, N]⟩ : Shape).Idx → EReal)
    (j : (⟨2, ![M, N]⟩ : Shape).Idx) :
    ∑ u : (DotDims.plain M K N).contr.Idx, l ((DotDims.plain M K N).lhsIdx j u) * r ((DotDims.plain M K N).rhsIdx j u)
      = rowDot (rowOf l (j 0)) r (j 1) := by
  unfold rowDot rowOf
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact plain_lhs0 j _
      | ⟨1, _⟩ => exact (plain_lhs1 j _).trans hk)
  have er : (DotDims.plain M K N).rhsIdx j ((contrEquiv1 (DotDims.plain M K N) K rfl rfl).symm k) = ix2 k (j 1) :=
    funext fun a => Fin.ext (by
      match a with
      | ⟨0, _⟩ => exact (plain_rhs0 j _).trans hk
      | ⟨1, _⟩ => exact plain_rhs1 j _)
  exact congrArg₂ (fun a b : EReal => a * b) (congrArg l el) (congrArg r er)

/-- The vector unit's matrix product into the zero accumulator, at an entry. -/
theorem matmul_plain_zero_apply {M K N : Nat} {φ₁ φ₂ : FTy} (prec : Option ContractPrecision)
    (lhs : FVec Ideal (⟨2, ![M, K]⟩ : Shape) φ₁) (rhs : FVec Ideal (⟨2, ![K, N]⟩ : Shape) φ₂) (j : (⟨2, ![M, N]⟩ : Shape).Idx) :
    FloatOps.matmul (DotDims.plain M K N) prec lhs rhs (constant (F := Ideal) (⟨2, ![M, N]⟩ : Shape) .f32 0x00000000#32) j
      = rowDot (rowOf lhs (j 0)) rhs (j 1) := by
  rw [Ideal.matmul_constant_zero_apply]
  exact plain_contr_sum lhs rhs j

/-- The host's dot_general, at an entry. -/
theorem dotGeneral_plain_apply {M K N : Nat} {φ₁ φ₂ : FTy} (prec : Option ContractPrecision) (sched : HostSchedule)
    (lhs : FVec Ideal (⟨2, ![M, K]⟩ : Shape) φ₁) (rhs : FVec Ideal (⟨2, ![K, N]⟩ : Shape) φ₂) (j : (⟨2, ![M, N]⟩ : Shape).Idx) :
    FloatOps.dotGeneral (DotDims.plain M K N) prec sched lhs rhs j = rowDot (rowOf lhs (j 0)) rhs (j 1) := by
  rw [Ideal.dotGeneral_apply]
  exact plain_contr_sum lhs rhs j

end Cert.RowDot

end
-- ==== Proof.LibGraphConv.lean ====
/-
  One graph-convolution layer without bias, at the exact (extended-real) values:  out = adj · (xf · W).

  The support matrix  S = xf · W  is  S(n, e) = Σ_d xf(n, d) · W(d, e),  and the layer's output is
  out(m, e) = Σ_n adj(m, n) · S(n, e).  Both are stated once, for every extent M, N, D, E, as whole-array
  functions, together with
    • the vector unit's two products into zero accumulators (the support, and a block of rows of the adjacency
      times an already computed support),
    • the host's two dot_generals composed, and
    • the row law: row p of a block of rows of the adjacency gives the same output row as the row of the whole
      adjacency it was cut from — the support does not depend on the block, so a layer computed block of rows by
      block of rows against ONE support is the layer computed whole.
  No law of the extended reals beyond congruence of sums is used: the two sides have the same grouping.
-/
import proofs.«113308_g55241869361592_cont_9to1c4b_774_19_alg».proof.Proof.LibRowDot

noncomputable section

open scoped BigOperators

namespace Cert.GraphConv

open Idealize.ShloMosaic Idealize.ShloMosaic.ValueIdx Cert.RowDot

variable {M N D E T : Nat}

/-- The support matrix  xf · W :  entry (n, e) is row n of xf times W, at column e. -/
def support (xf : (⟨2, ![N, D]⟩ : Shape).Idx → EReal) (W : (⟨2, ![D, E]⟩ : Shape).Idx → EReal) :
    (⟨2, ![N, E]⟩ : Shape).Idx → EReal :=
  fun j => rowDot (rowOf xf (j 0)) W (j 1)

/-- The layer  adj · (xf · W) :  entry (m, e) is row m of adj times the support, at column e. -/
def conv (adj : (⟨2, ![M, N]⟩ : Shape).Idx → EReal) (xf : (⟨2, ![N, D]⟩ : Shape).Idx → EReal)
    (W : (⟨2, ![D, E]⟩ : Shape).Idx → EReal) : (⟨2, ![M, E]⟩ : Shape).Idx → EReal :=
  fun i => rowDot (rowOf adj (i 0)) (support xf W) (i 1)

/-- The vector unit's product of xf and W into the zero accumulator is the support, as a whole array. -/
theorem matmul_support {φ₁ φ₂ : FTy} (prec : Option ContractPrecision)
    (xf : FVec Ideal (⟨2, ![N, D]⟩ : Shape) φ₁) (W : FVec Ideal (⟨2, ![D, E]⟩ : Shape) φ₂) :
    FloatOps.matmul (DotDims.plain N D E) prec xf W (constant (F := Ideal) (⟨2, ![N, E]⟩ : Shape) .f32 0x00000000#32)
      = support xf W :=
  funext fun j => matmul_plain_zero_apply prec xf W j

/-- The vector unit's product of a block of T rows with a support s, into the zero accumulator, at an entry. -/
theorem matmul_rows_apply {φ₁ φ₂ : FTy} (prec : Option ContractPrecision)
    (a : FVec Ideal (⟨2, ![T, N]⟩ : Shape) φ₁) (s : FVec Ideal (⟨2, ![N, E]⟩ : Shape) φ₂) (p : Fin T) (q : Fin E) :
    FloatOps.matmul (DotDims.plain T N E) prec a s (constant (F := Ideal) (⟨2, ![T, E]⟩ : Shape) .f32 0x00000000#32) (ix2 p q)
      = rowDot (rowOf a p) s q :=
  matmul_plain_zero_apply prec a s (ix2 p q)

/-- The host's two dot_generals composed are the layer, as a whole array. -/
theorem dotGeneral_conv {φ₁ φ₂ φ₃ : FTy} (prec prec' : Option ContractPrecision) (sched sched' : HostSchedule)
    (adj : FVec Ideal (⟨2, ![M, N]⟩ : Shape) φ₁) (xf : FVec Ideal (⟨2, ![N, D]⟩ : Shape) φ₂)
    (W : FVec Ideal (⟨2, ![D, E]⟩ : Shape) φ₃) :
    (FloatOps.dotGeneral (DotDims.plain M N E) prec sched adj
        (FloatOps.dotGeneral (DotDims.plain N D E) prec' sched' xf W : FVec Ideal (⟨2, ![N, E]⟩ : Shape) .f32)
      : FVec Ideal (⟨2, ![M, E]⟩ : Shape) .f32)
      = conv adj xf W := by
  funext i
  rw [dotGeneral_plain_apply]
  unfold conv
  refine congrArg (fun s => rowDot (rowOf adj (i 0)) s (i 1)) ?_
  exact funext fun j => dotGeneral_plain_apply prec' sched' xf W j

/-- THE ROW LAW.  If row p of a block a is row r of adj, then against any support s row p of the block gives what
    row r of adj gives: the output's row depends on that one row of the adjacency only. -/
theorem rowDot_of_row (a : (⟨2, ![T, N]⟩ : Shape).Idx → EReal) (adj : (⟨2, ![M, N]⟩ : Shape).Idx → EReal)
    (s : (⟨2, ![N, E]⟩ : Shape).Idx → EReal) (p : Fin T) (r : Fin M) (q : Fin E)
    (h : ∀ k : Fin N, a (ix2 p k) = adj (ix2 r k)) :
    rowDot (rowOf a p) s q = rowDot (rowOf adj r) s q := by
  unfold rowDot rowOf
  exact Finset.sum_congr rfl fun k _ => by rw [h k]

/-- The layer at the entry (r, q), spelt with its coordinates. -/
theorem conv_apply (adj : (⟨2, ![M, N]⟩ : Shape).Idx → EReal) (xf : (⟨2, ![N, D]⟩ : Shape).Idx → EReal)
    (W : (⟨2, ![D, E]⟩ : Shape).Idx → EReal) (r : Fin M) (q : Fin E) :
    conv adj xf W (ix2 r q) = rowDot (rowOf adj r) (support xf W) q := rfl

end Cert.GraphConv

end
-- ==== Proof.LayerValue.lean ====
/-
  The kernel's result array, read at the exact (extended-real) values: it ends holding the layer
  adj · (reshape(x) · W)  of the argument arrays, entry by entry.

  The grid has 25 points; point t owns rows 400·t … 400·t + 399 of the result and stages the same rows of the
  adjacency.  The two arithmetic terms of the body are plain matrix products into zero accumulators (the narrowing to
  bf16 is the identity on exact values, and the shape casts are casts of a shape to itself):
      support  =  (features) · (weights),                 entry (n, e) = Σ_d features(n, d) · weights(d, e)
      block t  =  (rows of adjacency at t) · support,     entry (p, e) = Σ_n adj(400·t + p, n) · support(n, e).
  The support is the same at every point (it is held in the scratch buffer from the first point on), so entry (p, e)
  of block t is entry (400·t + p, e) of the layer computed whole: the row law.  Every row r lies in the block of point
  r / 400, and every point writes its block back, so the blocks cover the result array and it IS the layer.
  The features are what the host's reshape wrote before the launch: the argument x re-read in row-major order.
-/
import proofs.«113308_g55241869361592_cont_9to1c4b_774_19_alg».proof.Proof.AfterPoint
import proofs.«113308_g55241869361592_cont_9to1c4b_774_19_alg».proof.Proof.LibGraphConv
import proofs.«113308_g55241869361592_cont_9to1c4b_774_19_alg».proof.Proof.Gen.KernelIdeal.Value
import Idealize.ShloMosaic.Lib.Pipeline.Value
import Idealize.ShloMosaic.Lib.ValueIdx
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Layer

open Cert.KernelIdeal Cert.KernelIdeal.Gen Cert.KernelIdeal.AfterPoint Cert.GraphConv Cert.RowDot

variable (m : (ℓ : Loc nD τ sig) → Buf (Elt Ideal) ℓ) (ρ : Dev nD → PrngReg)

/-! ## The body's two arithmetic terms are plain products -/

/-- The first product (features by weights into zero, narrowed, between two casts of a shape to itself) is the
    support of its operands, as a whole array. -/
theorem support_term (x1 : Vec Ideal S10000x256 .f32) (x2 : Vec Ideal S256x256 .f32) :
    (k0_pay1 x1 x2 : S10000x256.Idx → EReal) = support (N := 10000) (D := 256) (E := 256) x1 x2 := by
  unfold k0_pay1
  simp only [shapeCast_self]
  exact matmul_support (N := 10000) (D := 256) (E := 256) (φ₁ := .f32) (φ₂ := .f32) none x1 x2

/-- The second product (a narrowed block of 400 adjacency rows by a support s into zero), at the entry (p, q), given
    which row r of the adjacency the block's row p is. -/
theorem block_entry (adj : S10000x10000.Idx → EReal) (x0 : Vec Ideal S400x10000 .f32) (s : Vec Ideal S10000x256 .bf16)
    (p : Fin 400) (q : Fin 256) (r : Fin 10000) (hrow : ∀ k : Fin 10000, x0 (ix2 p k) = adj (ix2 r k)) :
    k0_pay2 x0 s (ix2 p q) = rowDot (rowOf (M := 10000) (K := 10000) adj r) s q := by
  unfold k0_pay2
  refine (matmul_rows_apply (T := 400) (N := 10000) (E := 256) (φ₁ := .bf16) (φ₂ := .bf16) none x0 s p q).trans ?_
  exact rowDot_of_row (T := 400) (N := 10000) (M := 10000) (E := 256) x0 adj s p r q hrow

/-! ## The arrays as the launch finds them -/

/-- The features: what the host's reshape wrote before the launch. -/
theorem features_eq (c : Dev nD) :
    (V m c main_call0_v0 : S10000x256.Idx → EReal)
      = shapeCast S10000x256 (m ((c : Thread nD τ).loc main_arg0)) shapeCasts_S10000x16x16_S10000x256 := by
  dsimp only [Gen.V, Gen.hostOps0]; after_results; rfl

/-- The layer of the argument arrays: adj · (reshape(x) · W). -/
def layer (c : Dev nD) : S10000x256.Idx → EReal :=
  conv (M := 10000) (N := 10000) (D := 256) (E := 256) (m ((c : Thread nD τ).loc main_arg1))
    (shapeCast S10000x256 (m ((c : Thread nD τ).loc main_arg0)) shapeCasts_S10000x16x16_S10000x256)
    (m ((c : Thread nD τ).loc main_arg2))

/-- What the scratch buffer holds after every point is the support of the reshaped x and W. -/
theorem held_eq (c : Dev nD) :
    (held m c : S10000x256.Idx → EReal)
      = support (N := 10000) (D := 256) (E := 256)
          (shapeCast S10000x256 (m ((c : Thread nD τ).loc main_arg0)) shapeCasts_S10000x16x16_S10000x256)
          (m ((c : Thread nD τ).loc main_arg2)) := by
  unfold held
  rw [support_term, features_eq, V_main_arg2]

/-! ## From the blocks to the array -/

/-- The printed index maps, decided over the 25 points: the adjacency window and the output window are both at block
    (t, 0) at point t. -/
theorem idx_rows : ∀ t : Fin cfg0.N,
    win0_0.index t 0 = t.val ∧ win0_0.index t 1 = 0 ∧ win0_3.index t 0 = t.val ∧ win0_3.index t 1 = 0 :=
  (by decide +kernel : ∀ t : Fin grid0.N,
    win0_0.index t 0 = t.val ∧ win0_0.index t 1 = 0 ∧ win0_3.index t 0 = t.val ∧ win0_3.index t 1 = 0)

/-- What point t writes back is block t of the layer. -/
theorem flushed_eq (c : Dev nD) (t : Fin cfg0.N) :
    (dats m 0 c).flushed 3 t = ((cfg0.win 3).blk t).view.read (Elt Ideal) (layer m c) := by
  rw [Cert.KernelIdeal.Value.flushed3, out_after]
  obtain ⟨e0, e1, e2, e3⟩ := idx_rows t
  have hN : t.val < 25 := lt_of_lt_of_eq t.isLt (show cfg0.N = 25 from N_0)
  funext y
  obtain ⟨p, q, rfl⟩ : ∃ (p : Fin 400) (q : Fin 256), y = ix2 p q := ⟨y 0, y 1, eq_ix2 y⟩
  have hp : p.val < 400 := p.isLt
  show k0_pay2 (iblk m c 0 t) (held m c) (ix2 p q) = layer m c (((cfg0.win 3).blk t).view.emb (ix2 p q))
  have hi : ((cfg0.win 3).blk t).view.emb (ix2 p q) = ix2 (⟨t.val * 400 + p.val, by omega⟩ : Fin 10000) q := by
    funext a; apply Fin.ext
    match a with
    | ⟨0, _⟩ => show win0_3.index t 0 * 400 + 1 * p.val = t.val * 400 + p.val; rw [e2]; omega
    | ⟨1, _⟩ => show win0_3.index t 1 * 256 + 1 * q.val = q.val; rw [e3]; omega
  rw [hi]
  unfold layer
  rw [conv_apply, ← held_eq]
  refine block_entry (m ((c : Thread nD τ).loc main_arg1)) (iblk m c 0 t) (held m c) p q ⟨t.val * 400 + p.val, by omega⟩ ?_
  intro k
  unfold iblk
  rw [View.read_apply]
  show V m c main_arg1 _ = m ((c : Thread nD τ).loc main_arg1) _
  rw [V_main_arg1]
  congr 1
  funext a
  apply Fin.ext
  match a with
  | ⟨0, _⟩ => show win0_0.index t 0 * 400 + 1 * p.val = t.val * 400 + p.val; rw [e0]; omega
  | ⟨1, _⟩ => show win0_0.index t 1 * 10000 + 1 * k.val = k.val; rw [e1]; omega

/-- An index of the result array is in point t's block iff each coordinate is in the block's range on its axis. -/
theorem mem_block (t : Fin cfg0.N) (i : S10000x256.Idx) :
    i ∈ ((cfg0.win 3).blk t).view.set ↔
      ∀ a : Fin 2, win0_3.index t a * S400x256.size a ≤ (i a).val ∧ (i a).val < win0_3.index t a * S400x256.size a + S400x256.size a := by
  show i ∈ ((View.whole main_v0).slice (win0_3.rect t)).set ↔ _
  rw [View.set_slice_whole, Rect.mem_set_unit]
  exact Iff.rfl

/-- Row r lies in the block of point r / 400, which writes back. -/
theorem covered (i : S10000x256.Idx) :
    ∃ t : Fin cfg0.N, (cfg0.win 3).flush t = true ∧ i ∈ ((cfg0.win 3).blk t).view.set := by
  have hi0 : (i 0).val < 10000 := (i 0).isLt
  have hi1 : (i 1).val < 256 := (i 1).isLt
  have hN : cfg0.N = 25 := N_0
  let t : Fin cfg0.N := ⟨(i 0).val / 400, by rw [hN]; omega⟩
  obtain ⟨e0, e1, e2, e3⟩ := idx_rows t
  have ht : t.val = (i 0).val / 400 := rfl
  refine ⟨t, flush0_3 t, ?_⟩
  rw [mem_block]
  intro a
  match a with
  | ⟨0, _⟩ => show win0_3.index t 0 * 400 ≤ (i 0).val ∧ (i 0).val < win0_3.index t 0 * 400 + 400; rw [e2, ht]; omega
  | ⟨1, _⟩ => show win0_3.index t 1 * 256 ≤ (i 1).val ∧ (i 1).val < win0_3.index t 1 * 256 + 256; rw [e3]; omega

/-- So after the run the result array is the layer. -/
theorem final (c : Dev nD) : (dats m 0 c).arrAt 3 cfg0.N = layer m c :=
  (dats m 0 c).arrAt_eq_of_cover 3 (layer m c) (fun t _ => flushed_eq m c t) (covered)

/-- The kernel's run, read: the result array at the layer of the arguments, the arguments unchanged. -/
theorem run : θ_run defs (onTc (τ := τ) (main (F := Ideal))) ⟨m, fun _ => 0, ρ⟩ fun r => ∀ c : Dev nD,
      r.2.mem ((c : Thread nD τ).loc main_v0) = layer m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.KernelIdeal.Layer

end
-- ==== Proof.RefLayer.lean ====
/-
  The reference, read at the exact (extended-real) values: its result is the layer  adj · (reshape(x) · W).

  The reference is three host operations: the reshape of x to [10000, 256], the dot_general of that with W (the
  support), and the dot_general of adj with the support.  Both dot_generals contract the left operand's axis 1 with
  the right operand's axis 0 and have no batch axis, so each entry is the plain sum over the contracted index, and the
  two composed are the layer as a whole array — the same grouping as the kernel's, with no re-association.
-/
import proofs.«113308_g55241869361592_cont_9to1c4b_774_19_alg».proof.Proof.LibGraphConv
import proofs.«113308_g55241869361592_cont_9to1c4b_774_19_alg».proof.Proof.Gen.ReferenceIdeal.Read

noncomputable section

open Idealize.ShloMosaic Idealize.ShloMosaic.TcCoe Idealize.SL.Sem

namespace Cert.ReferenceIdeal.RefLayer

open Cert.ReferenceIdeal Cert.ReferenceIdeal.Gen Cert.GraphConv

/-- The reference's last stage is the layer of its arguments: adj times the support of the reshaped x and W. -/
theorem result_is_layer (x0 : (⟨S10000x16x16, .f32⟩ : BufTy).Contents (Elt Ideal))
    (x1 : (⟨S10000x10000, .f32⟩ : BufTy).Contents (Elt Ideal)) (x2 : (⟨S256x256, .f32⟩ : BufTy).Contents (Elt Ideal)) :
    (Read.val_main_v2 (F := Ideal) x0 x1 x2 : S10000x256.Idx → EReal)
      = conv (M := 10000) (N := 10000) (D := 256) (E := 256) x1 (Read.val_main_v0 (F := Ideal) x0) x2 := by
  unfold Read.val_main_v2 Read.val_main_v1
  simp only [Host.dotGeneral]
  exact dotGeneral_conv (M := 10000) (N := 10000) (D := 256) (E := 256) (φ₁ := .f32) (φ₂ := .f32) (φ₃ := .f32)
    none none _ _ x1 (Read.val_main_v0 (F := Ideal) x0) x2

end Cert.ReferenceIdeal.RefLayer

end
-- ==== Proof.lean ====
/-
  The certificate of one graph-convolution layer without bias,  out = adj · (reshape(x) · W),  x : [10000, 16, 16],
  adj : [10000, 10000], W : [256, 256]: a kernel that computes it block of 400 rows by block of 400 rows against a
  jnp reference that computes it whole.

  The kernel reshapes x to the feature matrix [10000, 256] on the host and launches one region of 25 grid points.  At
  the first point the body computes the support  S = features · W  once and keeps it (narrowed to bf16) in a scratch
  buffer; at every point it multiplies the point's 400 rows of adj (narrowed to bf16) by the kept support and writes
  the product to rows 400·t … 400·t + 399 of the result.  The reference computes reshape, then features · W, then
  adj · (that), with the host's dot_general.

  At the exact values a change of float format is the identity, and a matrix product into a zero accumulator and a
  dot_general are the same plain sum over the contracted index.  So both programs compute, entry by entry,
      out(r, e) = Σ_n adj(r, n) · ( Σ_d features(n, d) · W(d, e) ),
  with the SAME grouping of the two sums: no law of the extended reals beyond congruence is needed, and the
  finiteness of the inputs is never used.  What has to be shown is on the kernel's side: that the scratch buffer
  holds the one support after every point (an induction on the point), that row p of the block written at point t is
  row 400·t + p of the layer (the output row depends only on that row of adj), and that the 25 blocks cover the
  result array.

  The three frame claims are the generated frames (the reference's is its generated run with the result dropped); the
  ideal pass rewrote nothing, so the preservation claim is trivial.
-/
import proofs.«113308_g55241869361592_cont_9to1c4b_774_19_alg».proof.Defs
import proofs.«113308_g55241869361592_cont_9to1c4b_774_19_alg».proof.Proof.Gen.Kernel
import proofs.«113308_g55241869361592_cont_9to1c4b_774_19_alg».proof.Proof.Gen.Kernel.Skeleton
import proofs.«113308_g55241869361592_cont_9to1c4b_774_19_alg».proof.Proof.Gen.Kernel.Launch
import proofs.«113308_g55241869361592_cont_9to1c4b_774_19_alg».proof.Proof.Gen.Kernel.Points
import proofs.«113308_g55241869361592_cont_9to1c4b_774_19_alg».proof.Proof.Gen.Kernel.Frame
import proofs.«113308_g55241869361592_cont_9to1c4b_774_19_alg».proof.Proof.Gen.KernelIdeal
import proofs.«113308_g55241869361592_cont_9to1c4b_774_19_alg».proof.Proof.Gen.KernelIdeal.Skeleton
import proofs.«113308_g55241869361592_cont_9to1c4b_774_19_alg».proof.Proof.Gen.KernelIdeal.Launch
import proofs.«113308_g55241869361592_cont_9to1c4b_774_19_alg».proof.Proof.Gen.KernelIdeal.Points
import proofs.«113308_g55241869361592_cont_9to1c4b_774_19_alg».proof.Proof.Gen.KernelIdeal.Frame
import proofs.«113308_g55241869361592_cont_9to1c4b_774_19_alg».proof.Proof.Gen.ReferenceIdeal
import proofs.«113308_g55241869361592_cont_9to1c4b_774_19_alg».proof.Proof.Gen.Pre_finite_inputs
import proofs.«113308_g55241869361592_cont_9to1c4b_774_19_alg».proof.Proof.Gen.KernelIdeal.Value
import proofs.«113308_g55241869361592_cont_9to1c4b_774_19_alg».proof.Proof.Gen.ReferenceIdeal.Run
import proofs.«113308_g55241869361592_cont_9to1c4b_774_19_alg».proof.Proof.Gen.ReferenceIdeal.Read
import proofs.«113308_g55241869361592_cont_9to1c4b_774_19_alg».proof.Proof.LayerValue
import proofs.«113308_g55241869361592_cont_9to1c4b_774_19_alg».proof.Proof.RefLayer
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel [Cert.Kernel.Facts] [Cert.Pre_finite_inputs.Facts] : Cert.frame_Kernel :=
  fun m ρ _ => Cert.Kernel.Gen.frame m ρ

/-- So does its idealization. -/
theorem frame_kernelIdeal [Cert.KernelIdeal.Facts] [Cert.Pre_finite_inputs.Facts] : Cert.frame_KernelIdeal :=
  fun m ρ _ => Cert.KernelIdeal.Gen.frame m ρ

/-- The reference runs and leaves its arguments unchanged: its run, with the result dropped. -/
theorem frame_reference [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- From memories that agree on x, adj and W both programs end with the layer adj · (reshape(x) · W) of those arrays:
    the kernel's result array by its blocks, the reference's by its two dot_generals. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.Layer.layer m c, Cert.KernelIdeal.Layer.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.ReferenceIdeal.RefLayer.result_is_layer,
    (hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
